-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100000 .f32) : IVec S_ 1 :=
  let main_v0 : FVec F S100000 .f32 := Host.absf main_arg1
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 99999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100000 : Shape := ⟨1, ![100000]⟩
abbrev S16x1024 : Shape := ⟨2, ![16, 1024]⟩
abbrev S1024 : Shape := ⟨1, ![1024]⟩
abbrev S_ : Shape := ⟨0, ![]⟩
abbrev S1x1024 : Shape := ⟨2, ![1, 1024]⟩

abbrev nBuf : Table → Nat
  | .hbm => 5
  | .local .scVector .vmem => 2
  | _ => 0

abbrev bufTy : (tb : Table) → Fin (nBuf tb) → BufTy
  | .hbm, ⟨0, _⟩ => ⟨S16384, .i32⟩
  | .hbm, ⟨1, _⟩ => ⟨S100000, .f32⟩
  | .hbm, ⟨2, _⟩ => ⟨S16x1024, .i32⟩
  | .hbm, ⟨3, _⟩ => ⟨S16x1024, .f32⟩
  | .hbm, ⟨4, _⟩ => ⟨S16384, .f32⟩
  | .local .scVector .vmem, ⟨0, _⟩ => ⟨S1024, .i32⟩
  | .local .scVector .vmem, ⟨1, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32_1_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S16x1024 : S16384.ShapeCasts S16x1024
  squeezes_S1x1024_S1024 : S1x1024.Squeezes S1024
  inb_S100000_S100000_0 : ∀ a, (![0] : Fin 1 → Nat) a + S100000.size a ≤ S100000.size a
  gathers_S100000_S1024 : S100000.Gathers 0 S1024
  shapeCasts_S16x1024_S16384 : S16x1024.ShapeCasts S16384
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1024.size a ≤ S16x1024.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S100000 : Shape := ⟨1, ![100000]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S100000_S16384x1_S16384_n_0_n_n_0_1_1_wf : GatherDims.WF S100000 S16384x1 S16384 [] [0] [] [0] [] 1 ![1]

variable [Facts₀]

def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf

class Facts : Prop extends Facts₀ where

variable [Facts]
-- ==== Proof.Spec.lean ====
/-
  The specification both programs meet: a lookup of a flat table of 100000 entries at 16384 positions.
  Entry i of the result is the table's entry at the number the i-th index word holds. The number is reduced
  modulo the table's extent only to make the function total; where every index word is below the extent
  (`InRange`) the reduction changes nothing.
-/
import Idealize.ShloMosaic.Lib.ValueIdx

namespace Cert.Take

open Idealize.ShloMosaic Idealize.ShloMosaic.ValueIdx

/-- The positions: a flat array of 16384 index words. -/
abbrev SPos : Shape := ⟨1, ![16384]⟩
/-- The table: a flat array of 100000 entries. -/
abbrev STab : Shape := ⟨1, ![100000]⟩

/-- The table's index a 32-bit word names: its value as a natural number, reduced modulo the extent. -/
def slot (w : BitVec 32) : STab.Idx := ix1 ⟨w.toNat % 100000, Nat.mod_lt _ (by decide)⟩

/-- `take idx tab i = tab[idx i]`. -/
def take {E : Type} (idx : SPos.Idx → BitVec 32) (tab : STab.Idx → E) : SPos.Idx → E :=
  fun i => tab (slot (idx i))

/-- Every index word names a row of the table. -/
def InRange (idx : SPos.Idx → BitVec 32) : Prop := ∀ i, (idx i).toNat < 100000

/-- A word below the extent names the entry at its own value. -/
theorem slot_of_lt {w : BitVec 32} (h : w.toNat < 100000) : slot w = ix1 ⟨w.toNat, h⟩ := by
  unfold slot; congr 1; exact Fin.ext (Nat.mod_eq_of_lt h)

end Cert.Take
-- ==== Proof.KISetup.lean ====
/-
  The gather kernel's program as the launch theorem sees it, and what its handshakes carry.
  Sixteen vector subcores of the first SparseCore each take one row of the 16 x 1024 index array, the whole table to
  read, and one row of the 16 x 1024 result; row w of the result ends as the table read at the numbers row w of the
  index array holds. The index array and the table come back unchanged.
-/
import proofs.«207180_g34299608826617_cont_8to1_b_1974_12_alg».proof.KernelIdeal
import proofs.«207180_g34299608826617_cont_8to1_b_1974_12_alg».proof.Proof.Gen.KernelIdeal
import proofs.«207180_g34299608826617_cont_8to1_b_1974_12_alg».proof.Proof.Gen.KernelIdeal.Skeleton
import proofs.«207180_g34299608826617_cont_8to1_b_1974_12_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The flat index array (an argument), the table (an argument), the index array as 16 rows, the result as 16 rows,
    the flat result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "iV" => (Memref.whole Cert.KernelIdeal.main_v0_scv : Memref Cert.KernelIdeal.sig Kind.scVector Space.hbm Cert.KernelIdeal.S16x1024 EltTy.i32)
local notation "xV" => (Memref.whole Cert.KernelIdeal.main_arg1_scv : Memref Cert.KernelIdeal.sig Kind.scVector Space.hbm Cert.KernelIdeal.S100000 EltTy.f32)
local notation "oV" => (Memref.whole Cert.KernelIdeal.main_v1_scv : Memref Cert.KernelIdeal.sig Kind.scVector Space.hbm Cert.KernelIdeal.S16x1024 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

theorem rdiv : 16 ∣ S16x1024.size 0 := ⟨1, rfl⟩
/-- Row i of a 16 x 1024 array, as a rectangle. -/
abbrev row (i : Fin 16) : Rect S16x1024 := Rect.part (s := S16x1024) (a₀ := 0) rdiv i
abbrev iRowSet (i : Fin 16) : Finset S16x1024.Idx := ((iV).view.slice (row i)).set
abbrev oRowSet (i : Fin 16) : Finset S16x1024.Idx := ((oV).view.slice (row i)).set

/-- Tile i's read share of the table: the i-th of sixteen read tokens of the full share. -/
abbrev xq (i : Fin 16) : PosShare TreeShare := Transfers.shareTok fullShare 16 i

/-- Row-wise lookup: entry y of the result is the table at the number entry y of the index rows holds. -/
def gat {E : Type} (I : S16x1024.Idx → BitVec 32) (X : S100000.Idx → E) : S16x1024.Idx → E :=
  fun y => X (Cert.Take.slot (I y))

variable [FloatOps F]

/-! ## What the handshakes carry -/

variable (m : (ℓ : Loc nD τ sig) → Buf (Elt F) ℓ) (ρ : Dev nD → PrngReg)
-- `I2 d`: the contents of the 16-row index array at the call (what the host's reshape left there).
variable (I2 : (d : Dev nD) → Buf (Elt F) (iLoc d))

abbrev iPts (d : Dev nD) : sProp 𝕄 := iLoc d ↦{fullShare} I2 d
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (i : Fin 16) : sProp 𝕄 := iLoc d ↦[iRowSet i]{fullShare} I2 d
abbrev xShPts (d : Dev nD) (i : Fin 16) : sProp 𝕄 := xLoc d ↦{xq i} m (xLoc d)
abbrev oRowPts (d : Dev nD) (i : Fin 16) (f : Buf (Elt F) (oLoc d)) : sProp 𝕄 := oLoc d ↦[oRowSet i]{fullShare} f

/-- The result rows the call leaves: the lookup of the table at the index rows. -/
abbrev OUT (d : Dev nD) : Buf (Elt F) (oLoc d) := gat (I2 d) (m (xLoc d))

/-- The one call takes the index rows, the table and the result rows whole; each task its row of the index rows, a read
    share of the table and its row of the result, and brings them back, the result's row holding the lookup. -/
def P : (K (F := F)).Pay (nD := nD) (Val := Elt F) (Name := ℕ) (U := UU) where
  st := fun q d _ => match q with | 0 => iprop(iPts I2 d ∗ xPts m d ∗ oPts d (m (oLoc d)))
  dn := fun q d _ => match q with | 0 => iprop(iPts I2 d ∗ xPts m d ∗ oPts d (OUT m I2 d))
  go := fun q d _ i => match q with
    | 0 => iprop(iRowPts I2 d (Fin.cast nSub_zero i) ∗ xShPts m d (Fin.cast nSub_zero i) ∗ oRowPts d (Fin.cast nSub_zero i) (m (oLoc d)))
  td := fun q d _ i => match q with
    | 0 => iprop(iRowPts I2 d (Fin.cast nSub_zero i) ∗ xShPts m d (Fin.cast nSub_zero i) ∗ oRowPts d (Fin.cast nSub_zero i) (OUT m I2 d))
  x := fun _ _ => iprop(emp)

instance P_storable : (P (F := F) m I2).IsStorable where
  st q d _ := match q with
    | 0 => (inferInstance : BI.Storable (upEmb : UEmb _ 𝕄) iprop(iPts I2 d ∗ xPts m d ∗ oPts d (m (oLoc d))))
  dn q d _ := match q with
    | 0 => (inferInstance : BI.Storable (upEmb : UEmb _ 𝕄) iprop(iPts I2 d ∗ xPts m d ∗ oPts d (OUT m I2 d)))
  go q d _ i := match q with
    | 0 => (inferInstance : BI.Storable (upEmb : UEmb _ 𝕄)
      iprop(iRowPts I2 d (Fin.cast nSub_zero i) ∗ xShPts m d (Fin.cast nSub_zero i) ∗ oRowPts d (Fin.cast nSub_zero i) (m (oLoc d))))
  td q d _ i := match q with
    | 0 => (inferInstance : BI.Storable (upEmb : UEmb _ 𝕄)
      iprop(iRowPts I2 d (Fin.cast nSub_zero i) ∗ xShPts m d (Fin.cast nSub_zero i) ∗ oRowPts d (Fin.cast nSub_zero i) (OUT m I2 d)))

/-- What the proof asks of the index rows at the call: every word names a row of the table. -/
def RowsOK : Prop := ∀ (d : Dev nD) (y : S16x1024.Idx), (I2 d y).toNat < 100000

/-! ## A tile, as the task addresses its storage -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The row the task slices out of a 16 x 1024 array, through the printed offset function. -/
abbrev rowK (L : grid0.Coords) : Rect S16x1024 := Rect.unit (s := S16x1024) (k0_off1 L) S1x1024.size (k0_off1_inb L)
/-- Row `L 1` of the index rows and of the result rows, squeezed, and all of the table, as the task addresses them. -/
abbrev iRowK (L : grid0.Coords) : Memref sig .scVector .hbm S1024 .i32 := ((iV).slice (rowK L) (fun _ => rfl)).squeeze S1024 squeezes_S1x1024_S1024
abbrev oRowK (L : grid0.Coords) : Memref sig .scVector .hbm S1024 .f32 := ((oV).slice (rowK L) (fun _ => rfl)).squeeze S1024 squeezes_S1x1024_S1024
abbrev xAllK : Memref sig .scVector .hbm S100000 .f32 := (xV).slice (Rect.unit (s := S100000) ![0] S100000.size inb_S100000_S100000_0) (fun _ => rfl)

omit [FloatOps F] in
/-- The task's row is row `L 1` of the split: the first SparseCore is the only one, so the offset is the subcore's number. -/
theorem rowK_eq : rowK L = row (jL L) := by
  unfold rowK row Rect.part Rect.block
  have h0 : (L 0).val = 0 := by have h : (L 0).val < 1 := (L 0).isLt; omega
  congr 1 <;> funext a
  · rw [k0_off1_eq]
    match a with
    | 0 => simp [Shape.partIx, Shape.partSize, h0]
    | 1 => simp [Shape.partIx, Shape.partSize]
  · match a with
    | 0 => simp [Shape.partSize]
    | 1 => simp [Shape.partSize]

omit [FloatOps F] in
theorem set_iRowK : (iRowK L).view.set = iRowSet (jL L) := by
  show (((iV).view.slice (rowK L)).reshape S1024 squeezes_S1x1024_S1024.numel_eq).set = ((iV).view.slice (row (jL L))).set
  rw [View.set_reshape]
  exact rowK_eq L ▸ rfl
omit [FloatOps F] in
theorem set_oRowK : (oRowK L).view.set = oRowSet (jL L) := by
  show (((oV).view.slice (rowK L)).reshape S1024 squeezes_S1x1024_S1024.numel_eq).set = ((oV).view.slice (row (jL L))).set
  rw [View.set_reshape]
  exact rowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three DMA semaphores: the gather's, the index fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.KI

end
-- ==== Proof.KIBody.lean ====
/-
  One task of the gather kernel, with its value. A vector subcore fetches its row of 1024 index words into its index
  scratch, gathers into its row scratch the table's entries those words name, and writes the row scratch out to its row
  of the 16 x 1024 result. Each word is below the table's extent, so the gather completes and lands, at place j, the
  table's entry at the number word j holds; the write-out carries that to place j of the task's row of the result,
  which is the same place of the array as place j of its row of index words. So the row ends as that row of the lookup.
-/
import proofs.«207180_g34299608826617_cont_8to1_b_1974_12_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S16x1024 EltTy.i32)
local notation "xV" => (Memref.whole Cert.KernelIdeal.main_arg1_scv : Memref Cert.KernelIdeal.sig Kind.scVector Space.hbm Cert.KernelIdeal.S100000 EltTy.f32)
local notation "oV" => (Memref.whole Cert.KernelIdeal.main_v1_scv : Memref Cert.KernelIdeal.sig Kind.scVector Space.hbm Cert.KernelIdeal.S16x1024 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

variable [FloatOps F]
variable (m : (ℓ : Loc nD τ sig) → Buf (Elt F) ℓ) (ρ : Dev nD → PrngReg)
variable (I2 : (d : Dev nD) → Buf (Elt F) (iLoc d))

section Tile
variable (d : Dev nD) (L : grid0.Coords)

omit [FloatOps F] in
/-- Reading the task's row of the index rows: entry j is the array's word at the row's j-th place. -/
theorem read_iRowK (f : Buf (Elt F) (iLoc d)) (j : S1024.Idx) :
    (iRowK L).view.read (Elt F) f j = f ((iRowK L).view.emb j) :=
  (View.read_apply _ _).trans (cast_eq _ _)

omit [FloatOps F] in
/-- Whatever the index scratch held before, once the task's row of index words has landed in it every word it holds
    is below the table's extent. -/
theorem idx_inb (hpre : RowsOK I2) (fs : Buf (Elt F) ((V d (cV L) (jV L)).loc cc0_scratch0)) :
    ∀ x, ((sV).view.read (Elt F) (View.write (Elt F) (sV).view fs
        (ReadAs.same.apply ((iRowK L).view.read (Elt F) (I2 d))) Finset.univ) x).toNat
      < S100000.size gathers_S100000_S1024.axis := by
  intro x
  change ((View.whole cc0_scratch0).read (Elt F) ((View.whole cc0_scratch0).write (Elt F) fs
    (ReadAs.same.apply ((iRowK L).view.read (Elt F) (I2 d))) Finset.univ) x).toNat < _
  rw [View.write_whole_univ, View.read_whole, ReadAs.apply_same, read_iRowK]
  exact hpre d _

omit [FloatOps F] in
/-- The task's row of the index rows and its row of the result sit at the same places of a 16 x 1024 array. -/
theorem emb_iRowK_eq (j : S1024.Idx) : ((iRowK L).view.emb j : S16x1024.Idx) = (oRowK L).view.emb j := rfl

omit [FloatOps F] in
/-- The table, sliced whole from its first entry, is addressed at its own indices. -/
theorem emb_xAllK (z : S100000.Idx) : ((xAllK).view.emb z : S100000.Idx) = z := by
  funext b; apply Fin.ext
  show (![0] : Fin 1 → ℕ) b + 1 * (z b).val = (z b).val
  simp

omit [FloatOps F] in
/-- Reading the table through that slice reads the table. -/
theorem read_xAllK (f : Buf (Elt F) (xLoc d)) (z : S100000.Idx) : (xAllK).view.read (Elt F) f z = f z :=
  ((View.read_apply _ _).trans (cast_eq _ _)).trans (congrArg f (emb_xAllK z))

omit [FloatOps F] in
/-- In a flat list of 1024 words, the word at row-major position `j 0` is the word at `j`. -/
theorem rowMajor_symm_flat (j : S1024.Idx) (h : S1024.size gathers_S100000_S1024.axis' = S1024.numel) :
    S1024.rowMajor.symm ((j gathers_S100000_S1024.axis').cast h) = j := by
  rw [Equiv.symm_apply_eq]; apply Fin.ext
  rw [Shape.rowMajor_val_one]
  rfl

omit [FloatOps F] in
/-- What the gather lands at place j of the row scratch: the table's entry at the number the j-th word of the task's
    index row holds. The source index of a rank-one gather is the named row itself; the list's j-th word is the index
    array's word at the row's j-th place; that word is below the table's extent, so it names the entry at its value. -/
theorem gathered_at (hpre : RowsOK I2) (fs : Buf (Elt F) ((V d (cV L) (jV L)).loc cc0_scratch0))
    (hn : S1024.numel = S1024.size gathers_S100000_S1024.axis')
    (hin : ∀ x, ((sV).view.read (Elt F) (View.write (Elt F) (sV).view fs
        (ReadAs.same.apply ((iRowK L).view.read (Elt F) (I2 d))) Finset.univ) x).toNat
      < S100000.size gathers_S100000_S1024.axis) (j : S1024.Idx) :
    SparseCore.gatherPayload gathers_S100000_S1024 ((xAllK).view.read (Elt F) (m (xLoc d)))
        (SparseCore.rows ((sV).view.read (Elt F) (View.write (Elt F) (sV).view fs
          (ReadAs.same.apply ((iRowK L).view.read (Elt F) (I2 d))) Finset.univ)) hn hin) j
      = m (xLoc d) (Cert.Take.slot (I2 d ((iRowK L).view.emb j))) := by
  unfold SparseCore.gatherPayload
  rw [read_xAllK, Cert.Take.slot_of_lt (hpre d _)]
  refine congrArg (m (xLoc d)) ?_
  funext b
  have hb : b = gathers_S100000_S1024.axis := Fin.ext (by have h : b.val < 1 := b.isLt; show b.val = 0; omega)
  subst hb
  rw [Shape.Gathers.idx_axis]
  apply Fin.ext
  show ((View.whole cc0_scratch0).read (Elt F) ((View.whole cc0_scratch0).write (Elt F) fs
      (ReadAs.same.apply ((iRowK L).view.read (Elt F) (I2 d))) Finset.univ)
        (S1024.rowMajor.symm ((j gathers_S100000_S1024.axis').cast hn.symm))).toNat = (I2 d ((iRowK L).view.emb j)).toNat
  rw [View.write_whole_univ, View.read_whole, ReadAs.apply_same, read_iRowK, rowMajor_symm_flat]

omit [FloatOps F] in
/-- What the write-out carries at place j: the row scratch as the gather left it, read back whole. -/
theorem landed_at (hpre : RowsOK I2) (fs : Buf (Elt F) ((V d (cV L) (jV L)).loc cc0_scratch0))
    (fr : Buf (Elt F) ((V d (cV L) (jV L)).loc cc0_scratch1))
    (hn : S1024.numel = S1024.size gathers_S100000_S1024.axis')
    (hin : ∀ x, ((sV).view.read (Elt F) (View.write (Elt F) (sV).view fs
        (ReadAs.same.apply ((iRowK L).view.read (Elt F) (I2 d))) Finset.univ) x).toNat
      < S100000.size gathers_S100000_S1024.axis) (j : S1024.Idx) :
    ReadAs.same.apply ((rV).view.read (Elt F) ((rV).view.writes (Elt F) fr
        [⟨Rect.whole S1024, SparseCore.gatherPayload gathers_S100000_S1024 ((xAllK).view.read (Elt F) (m (xLoc d)))
          (SparseCore.rows ((sV).view.read (Elt F) (View.write (Elt F) (sV).view fs
            (ReadAs.same.apply ((iRowK L).view.read (Elt F) (I2 d))) Finset.univ)) hn hin)⟩])) j
      = m (xLoc d) (Cert.Take.slot (I2 d ((iRowK L).view.emb j))) :=
  (congrFun (View.read_writes_whole (rV).view fr _) j).trans (gathered_at m I2 d L hpre fs hn hin j)

omit [FloatOps F] in
/-- The task's row of the result, written whole with a payload that is the lookup place by place, is that row of
    the lookup: every element of the row is the row's j-th place for one j, where the write left the payload's j-th
    entry, and the index row's j-th place is the same place of the array. -/
theorem out_row (P : S1024.Idx → Elt F .f32)
    (hP : ∀ j, P j = m (xLoc d) (Cert.Take.slot (I2 d ((iRowK L).view.emb j)))) :
    ((oRowK L).view.loc (V d (cV L) (jV L)) ↦[(oRowK L).view.set]{fullShare}
        (oRowK L).view.writes (Elt F) (m (oLoc d)) [⟨Rect.whole S1024, P⟩] : sProp 𝕄)
      = oLoc d ↦[oRowSet (jL L)]{fullShare} OUT m I2 d := by
  rw [← pts_oRowK (F := F) d L (OUT m I2 d)]
  refine pointsTo_congr fun y hy => ?_
  obtain ⟨j, -, rfl⟩ := Finset.mem_map.mp hy
  have h1 : (oRowK L).view.writes (Elt F) (m (oLoc d)) [⟨Rect.whole S1024, P⟩] ((oRowK L).view.emb j) = P j :=
    (cast_eq _ _).symm.trans ((View.read_apply _ _).symm.trans (congrFun (View.read_writes_whole _ _ P) j))
  exact h1.trans ((hP j).trans rfl)

set_option maxHeartbeats 4000000 in
/-- The task on vector subcore `(L 0, L 1)`: it fetches its row of index words, gathers the table's entries they name
    into its row scratch, and writes that out to its row of the result, which then holds the lookup. -/
theorem tile_body (hF : (K (F := F)).Facts) (hpre : RowsOK I2) (O : CellTallies nD τ sig (HIx 1)) (W : Waits sig (HIx 1)) (hO : ∀ g, O g none = 0) :
    iprop(levAts (K (F := F)).L (K (F := F)).lev ∗ emp
        ∗ (iRowPts I2 d (jL L) ∗ xShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L iV (Memref.isWhole_whole _) xV (Memref.isWhole_whole _) oV (Memref.isWhole_whole _)
            sV (Memref.isWhole_whole _) rV (Memref.isWhole_whole _) cc0_scratch2 cc0_scoped0 cc0_scoped1)
          fun _ => iprop((iRowPts I2 d (jL L) ∗ xShPts m d (jL L) ∗ oRowPts d (jL L) (OUT m I2 d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  -- the task as its sequence of memory operations; the subcore's own scratch buffers and its three DMA cells named
  rw [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi1 := (Entails.of_eq (pts_iRowK (F := F) d L _).symm) $$ Hi
  ihave Ho1 := (Entails.of_eq (pts_oRowK (F := F) d L _).symm) $$ Ho
  ihave Hx1 := (Entails.of_eq (pts_xV (F := F) d L _ _).symm) $$ Hx
  ihave Hs1 := (Entails.of_eq (pts_sV (F := F) d L _).symm) $$ Hs
  ihave Hr1 := (Entails.of_eq (pts_rV (F := F) d L _).symm) $$ Hr
  -- the words the index fetch lands name rows of the table, whatever the index scratch held before
  have hin := idx_inb I2 d L hpre fs
  sl_exec
  sl_step
  -- the row of the result now holds, place by place, the table at the number the index row holds there
  ihave Ho2 := (Entails.of_eq (out_row m I2 d L (tile_body.sl.dma0_1 m I2 d L fs fr hin)
    fun j => landed_at m I2 d L hpre fs fr _ hin j)) $$ Ho1
  isplitl [Hi1 Hx1 Ho2]
  · isplitl [Hi1]; · iapply (Entails.of_eq (pts_iRowK (F := F) d L _)); iexact Hi1
    isplitl [Hx1]; · iexact Hx1
    iexact Ho2
  isplitl [Hs1 Hr1 Hbufs]
  · isplitl [Hs1]; · iexists _; iexact Hs1
    isplitl [Hr1]; · iexists _; iexact Hr1
    iexact Hbufs
  isplitl [HsemG HsemA HsemB Hsems]
  · isplitl [HsemG]; · iexact HsemG
    isplitl [HsemA]; · iexact HsemA
    isplitl [HsemB]; · iexact HsemB
    iexact Hsems
  iexists _; isplitr
  rotate_left
  · iexact HO
  -- the three waits recorded are all at index none
  ipureintro; intro p hp
  simp only [Finset.mem_insert] at hp
  rcases hp with rfl | rfl | rfl | hp
  · exact Or.inr rfl
  · exact Or.inr rfl
  · exact Or.inr rfl
  · exact Or.inl hp

end Tile

end Cert.Proof.KI

end
-- ==== Proof.PreRange.lean ====
/-
  The precondition read back as a range of the index words.

  The precondition is the conjunction of two reductions by `and` over whole arrays: every table entry is finite, and
  every index word w satisfies 0 ≤ w ≤ 99999 as a signed integer. Only the second half is used here. A reduction by
  `and` that yields 1 met a 1 at every element; the element at position i is the conjunction of the two signed
  comparisons of the i-th word with the splat constants 0 and 99999. A 32-bit word whose signed reading lies in
  [0, 99999] has its top bit clear, so its unsigned reading is the same number, and that number is below 100000.
-/
import proofs.«207180_g34299608826617_cont_8to1_b_1974_12_alg».proof.Pre_input_domain
import proofs.«207180_g34299608826617_cont_8to1_b_1974_12_alg».proof.Proof.Spec
import Idealize.ShloMosaic.Lib.ReduceAll
import Idealize.ShloMosaic.Lib.ValueIdx

namespace Cert.Take

open Idealize.ShloMosaic Idealize.ShloMosaic.ValueIdx

/-- The scalar shape has one index. -/
instance subsingleton_scalarIdx : Subsingleton Cert.Pre_input_domain.S_.Idx :=
  ⟨fun a b => funext fun d => d.elim0⟩

/-- A 32-bit word whose signed reading lies in [0, 99999] reads, unsigned, below 100000. -/
theorem toNat_lt_of_toInt_range {w : BitVec 32} (h0 : (0 : Int) ≤ w.toInt) (h1 : w.toInt ≤ 99999) :
    w.toNat < 100000 := by
  rw [BitVec.toInt_eq_toNat_cond] at h0 h1
  split at h0 <;> omega

/-- Under the precondition every index word names a row of the table. -/
theorem inRange_of_pre {F : FTy → Type} [FloatOps F] [Cert.Pre_input_domain.Facts]
    (idx : IVec Cert.Pre_input_domain.S16384 32) (adj : FVec F Cert.Pre_input_domain.S100000 .f32)
    (h : Cert.Pre_input_domain.fn (F := F) idx adj = (fun _ => 1#1)) : Cert.Take.InRange idx := by
  intro i
  have h0 := congrFun h ix0
  dsimp only [Cert.Pre_input_domain.fn] at h0
  have h1 := (IntOp.andi_eq_one.1 h0).2
  have h2 := Host.reduce_andi_all _ _ _ _ _ h1 i
  obtain ⟨hge, hle⟩ := IntOp.andi_eq_one.1 h2
  have hge' := IntOp.cmpi_sge.1 hge
  have hle' := IntOp.cmpi_sle.1 hle
  exact toNat_lt_of_toInt_range hge' hle'

end Cert.Take
-- ==== Proof.KILaunch.lean ====
/-
  The gather kernel's run: the obligation of one task wrapped for the launch, how the call's operands split among the
  sixteen tasks and join again, the launch element, @main on the TensorCore (the index array re-laid as 16 rows, the
  call, the result rows re-laid flat), and the value: the flat result is the table read at the index array's words.
-/
import proofs.«207180_g34299608826617_cont_8to1_b_1974_12_alg».proof.Proof.KISetup
import proofs.«207180_g34299608826617_cont_8to1_b_1974_12_alg».proof.Proof.KIBody
import proofs.«207180_g34299608826617_cont_8to1_b_1974_12_alg».proof.Proof.PreRange
import proofs.«207180_g34299608826617_cont_8to1_b_1974_12_alg».proof.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S16x1024 EltTy.i32)
local notation "xV" => (Memref.whole Cert.KernelIdeal.main_arg1_scv : Memref Cert.KernelIdeal.sig Kind.scVector Space.hbm Cert.KernelIdeal.S100000 EltTy.f32)
local notation "oV" => (Memref.whole Cert.KernelIdeal.main_v1_scv : Memref Cert.KernelIdeal.sig Kind.scVector Space.hbm Cert.KernelIdeal.S16x1024 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

variable [FloatOps F]
variable (m : (ℓ : Loc nD τ sig) → Buf (Elt F) ℓ) (ρ : Dev nD → PrngReg)
variable (I2 : (d : Dev nD) → Buf (Elt F) (iLoc d))

/-! ## The obligation of one task -/

section Obl
variable (d : Dev nD)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : RowsOK I2) : (K (F := F)).TileObl (D (F := F)) 𝒱 (P m I2) v₀ 0 := by
  intro d c i O W hO _ _
  simp only [show (P m I2).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m I2 d (coordsV ⟨_, hci.1⟩ ⟨_, hci.2⟩) hF hpre O W hO).trans (wp_mono frame _ _ fun _ => obl_post)

end Obl

/-! ## The rows split and join; the read shares of the table -/

omit [FloatOps F] in
theorem iRowSet_eq (i : Fin 16) : iRowSet i = (row i).set := by
  show ((View.whole (main_v0_scv : Ref sig .scVector)).slice (row i)).set = _
  rw [View.set_slice]; exact Finset.map_refl
omit [FloatOps F] in
theorem oRowSet_eq (i : Fin 16) : oRowSet i = (row i).set := by
  show ((View.whole (main_v1_scv : Ref sig .scVector)).slice (row i)).set = _
  rw [View.set_slice]; exact Finset.map_refl
omit [FloatOps F] in
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint rdiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint rdiv h
omit [FloatOps F] in
theorem irows_cover : (Finset.univ : Finset (Fin 16)).biUnion iRowSet = Finset.univ :=
  (Finset.biUnion_congr rfl fun i _ => iRowSet_eq i).trans (Rect.biUnion_part rdiv)
omit [FloatOps F] in
theorem orows_cover : (Finset.univ : Finset (Fin 16)).biUnion oRowSet = Finset.univ :=
  (Finset.biUnion_congr rfl fun i _ => oRowSet_eq i).trans (Rect.biUnion_part rdiv)

omit [FloatOps F] in
theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands go out to the sixteen tasks — the index rows and the result rows row by row, the table as
    sixteen read tokens of its full share, the rest of the share staying behind — and come back joined, the result
    rows at the one lookup every task wrote its row of. -/
theorem vecSplit : (K (F := F)).VecSplit' (P m I2) 0 := by
  intro d c
  show iprop(iPts I2 d ∗ xPts m d ∗ oPts d (m (oLoc d))) ⊢ |={Set.univ}=> iprop(
      (bigSep Finset.univ fun i : Fin ((K (F := F)).nSub 0) =>
        iprop(iRowPts I2 d (Fin.cast nSub_zero i) ∗ xShPts m d (Fin.cast nSub_zero i) ∗ oRowPts d (Fin.cast nSub_zero i) (m (oLoc d))))
      ∗ ((bigSep Finset.univ fun i : Fin ((K (F := F)).nSub 0) =>
          iprop(iRowPts I2 d (Fin.cast nSub_zero i) ∗ xShPts m d (Fin.cast nSub_zero i) ∗ oRowPts d (Fin.cast nSub_zero i) (OUT m I2 d)))
          -∗ iprop(iPts I2 d ∗ xPts m d ∗ oPts d (OUT m I2 d))))
  rw [bigSep_tasks (F := F) (fun i => iprop(iRowPts I2 d i ∗ xShPts m d i ∗ oRowPts d i (m (oLoc d)))),
    bigSep_tasks (F := F) (fun i => iprop(iRowPts I2 d i ∗ xShPts m d i ∗ oRowPts d i (OUT m I2 d))), bigSep_sep', bigSep_sep', bigSep_sep', bigSep_sep']
  unfold iPts xPts oPts iRowPts xShPts oRowPts
  rw [iPts_rows, oPts_rows, oPts_rows]
  iintro ⟨Hi, Hx, Ho⟩
  ihave Hx' := (Transfers.pointsTo_toks (ℓ := xLoc d) (S := Finset.univ) (f := m (xLoc d)) fullShare 16).1 $$ Hx
  icases Hx' with ⟨Hxrest, Hxs⟩
  imodintro
  isplitl [Hi Hxs Ho]
  · isplitl [Hi]; · iexact Hi
    isplitl [Hxs]; · iexact Hxs
    iexact Ho
  iintro ⟨Hi, Hxs, Ho⟩
  isplitl [Hi]; · iexact Hi
  isplitl [Hxrest Hxs]
  · iapply (Transfers.pointsTo_toks (ℓ := xLoc d) (S := Finset.univ) (f := m (xLoc d)) fullShare 16).2
    isplitl [Hxrest]; · iexact Hxrest
    iexact Hxs
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m I2).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m I2).x q thr) = bigSep Finset.univ fun _ => iprop(emp) from
    bigSep_congr fun _ _ => bigSep_univ_of_subsingleton (0 : Fin 1), bigSep_emp']
  iempintro

/-! ## @main on the TensorCore: the index array re-laid as 16 rows, the call, the result rows re-laid flat -/

open Idealize.ShloMosaic.StableHlo (held held_split held_sdiff_result wp_hlo_within)

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 rfl shapeCasts_S16384_S16x1024
abbrev opOut : HloOp τ sig (Elt F) := StableHlo.reshape main_v1 main_v2 rfl shapeCasts_S16x1024_S16384

/-- The TensorCore's five arrays, all unscoped. -/
abbrev S5 : Finset (DevRef τ sig) := {a', x', i', o', r'}

omit [FloatOps F] in
theorem held_S5 (d : Dev nD) (W : Valuation τ sig (Elt F)) :
    (held (T d) S5 W : sProp 𝕄) = iprop((aLoc d ↦{fullShare} W a') ∗ (xLoc d ↦{fullShare} W x') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first re-laying; after the call; after the second re-laying. -/
def V0 (d : Dev nD) : Valuation τ sig (Elt F) := fun b => m (d, b)
abbrev V1 (d : Dev nD) : Valuation τ sig (Elt F) := (opIn (F := F)).result (V0 m d)
/-- The 16 rows of index words the call sees. -/
def I2v (d : Dev nD) : Buf (Elt F) (iLoc d) := V1 m d i'
abbrev V2 (d : Dev nD) : Valuation τ sig (Elt F) := Function.update (V1 m d) o' (OUT m (I2v m) d)
abbrev V3 (d : Dev nD) : Valuation τ sig (Elt F) := (opOut (F := F)).result (V2 m d)
/-- The flat result the program ends with. -/
def RES (d : Dev nD) : Buf (Elt F) (rLoc d) := V3 m d r'

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) := (opIn (F := F)).result_of_not_mem (V0 m d) (b := a') (show a' ∉ ({i'} : Finset (DevRef τ sig)) by decide)
theorem V1_x (d : Dev nD) : V1 m d x' = m (xLoc d) := (opIn (F := F)).result_of_not_mem (V0 m d) (b := x') (show x' ∉ ({i'} : Finset (DevRef τ sig)) by decide)
theorem V1_i (d : Dev nD) : V1 m d i' = I2v m d := rfl
theorem V1_o (d : Dev nD) : V1 m d o' = m (oLoc d) := (opIn (F := F)).result_of_not_mem (V0 m d) (b := o') (show o' ∉ ({i'} : Finset (DevRef τ sig)) by decide)
theorem V1_r (d : Dev nD) : V1 m d r' = m (rLoc d) := (opIn (F := F)).result_of_not_mem (V0 m d) (b := r') (show r' ∉ ({i'} : Finset (DevRef τ sig)) by decide)

theorem V2_a (d : Dev nD) : V2 m d a' = m (aLoc d) := (Function.update_of_ne (show a' ≠ o' by decide) _ _).trans (V1_a m d)
theorem V2_x (d : Dev nD) : V2 m d x' = m (xLoc d) := (Function.update_of_ne (show x' ≠ o' by decide) _ _).trans (V1_x m d)
theorem V2_i (d : Dev nD) : V2 m d i' = I2v m d := Function.update_of_ne (show i' ≠ o' by decide) _ _
theorem V2_o (d : Dev nD) : V2 m d o' = OUT m (I2v m) d := Function.update_self _ _ _
theorem V2_r (d : Dev nD) : V2 m d r' = m (rLoc d) := (Function.update_of_ne (show r' ≠ o' by decide) _ _).trans (V1_r m d)

theorem V3_a (d : Dev nD) : V3 m d a' = m (aLoc d) :=
  ((opOut (F := F)).result_of_not_mem (V2 m d) (b := a') (show a' ∉ ({r'} : Finset (DevRef τ sig)) by decide)).trans (V2_a m d)
theorem V3_x (d : Dev nD) : V3 m d x' = m (xLoc d) :=
  ((opOut (F := F)).result_of_not_mem (V2 m d) (b := x') (show x' ∉ ({r'} : Finset (DevRef τ sig)) by decide)).trans (V2_x m d)

theorem hIn : (opIn (F := F)).bufs ⊆ S5 := show ({a', i'} : Finset (DevRef τ sig)) ⊆ S5 by decide
theorem hOut : (opOut (F := F)).bufs ⊆ S5 := show ({o', r'} : Finset (DevRef τ sig)) ⊆ S5 by decide

theorem st0_eq (d : Dev nD) : (bigSep Finset.univ fun c : Fin ((K (F := F)).nCore 0) => (P m (I2v m)).st 0 d c)
    = iprop(iPts (I2v m) d ∗ xPts m d ∗ oPts d (m (oLoc d))) :=
  bigSep_univ_of_subsingleton (0 : Fin 1)
theorem dn0_eq (d : Dev nD) : (bigSep Finset.univ fun c : Fin ((K (F := F)).nCore 0) => (P m (I2v m)).dn 0 d c)
    = iprop(iPts (I2v m) d ∗ xPts m d ∗ oPts d (OUT m (I2v m) d)) :=
  bigSep_univ_of_subsingleton (0 : Fin 1)

/-- What @main leaves the claim: the two arguments at their launch contents, the flat result at `RES`. -/
abbrev FIN (d : Dev nD) : sProp 𝕄 := iprop((aLoc d ↦{fullShare} m (aLoc d)) ∗ xPts m d ∗ rLoc d ↦{fullShare} RES m d)

set_option maxHeartbeats 1000000 in
/-- @main on device `d`'s TensorCore: the re-laying of the index array, the call, the re-laying of the result. -/
theorem hmain (κ : GSem nD τ sig → ℕ) (d : Dev nD) :
    iprop((K (F := F)).ctx EH (P m (I2v m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_S5 (F := F) d (V1 m d))) $$ Hheld
  icases Hh with ⟨Ha, Hx, Hi, Ho, Hr⟩
  rw [V1_a, V1_x, V1_i, V1_o, V1_r]
  iapply ((K (F := F)).wp_run (D (F := F)) 𝒱 (EH := EH) (P := P m (I2v m)) κ d 0) $$ [Hst Hx Hi Ho Hb Ha Hr]
  isplitr; · iexact Hctx
  isplitl [Hst]; · iexact Hst
  isplitl [Hx Hi Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  iapply (wp_hlo_within 𝒱 (SparseCore.T d) none Set.univ (op := opOut) (S := S5) hOut (V := V2 m d)) $$ [Hb Ha Hx Hi Ho Hr]
  · isplitl [Hb]; · iexact Hb
    rw [held_S5, V2_a, V2_x, V2_i, V2_o, V2_r]
    isplitl [Ha]; · iexact Ha
    isplitl [Hx]; · iexact Hx
    isplitl [Hi]; · iexact Hi
    isplitl [Ho]; · iexact Ho
    iexact Hr
  iintro ⟨Hb, Hheld⟩
  ihave Hh := (Entails.of_eq (held_S5 (F := F) d (V3 m d))) $$ Hheld
  icases Hh with ⟨Ha, Hx, -, -, Hr⟩
  rw [V3_a, V3_x]
  rw [wp_ret]; imodintro; imodintro
  isplitl [Hst]; · iexact Hst
  isplitl [Ha]; · iexact Ha
  isplitl [Hx]; · iexact Hx
  iexact Hr

def fq (d : Dev nD) (s' : Phys nD τ sig (Elt F)) : Prop :=
  s'.mem.mem (rLoc d) = RES m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (rLoc c) = RES m c ∧ r.2.mem (aLoc c) = m (aLoc c) ∧ r.2.mem (xLoc c) = m (xLoc c)

theorem run_main [∀ e, Nonempty (Elt F e)] (hpre : RowsOK (I2v m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (I2v m)) facts v₀
    (fun q hq => match q with | 0 => nomatch hq)
    (fun q _ => match q with | 0 => tileObl m (I2v m) facts hpre)
    (fun q _ => match q with | 0 => SparseCore.Cfg.VecSplit.of_plain (vecSplit m (I2v m)))
    m ρ main (fun _ => iprop(emp)) (FIN m) (u₀ (F := F)) (sep_elim_left.trans (hu₀ m (I2v m))) (hmain m ρ) (fq m) (hfin m) (QC m) (fun _ h => h)

/-! ## The value: the flat result is the lookup -/

omit [FloatOps F] in
/-- Re-laying the flat index array as 16 rows, looking up row-wise, and re-laying the rows flat is the flat lookup:
    the two re-layings match positions in row-major order, and there and back is the identity. -/
theorem take_of_rows {E : Type} (a : S16384.Idx → BitVec 32) (X : S100000.Idx → E)
    (h1 : S16384.ShapeCasts S16x1024) (h2 : S16x1024.ShapeCasts S16384) :
    (fun i => gat (fun y => a (Shape.reshapeEquiv h1 y)) X (Shape.reshapeEquiv h2 i)) = Cert.Take.take a X := by
  funext i
  show X (Cert.Take.slot (a (Shape.reshapeEquiv h1 (Shape.reshapeEquiv h2 i)))) = X (Cert.Take.slot (a i))
  rw [Shape.reshapeEquiv_reshapeEquiv, Shape.reshapeEquiv_self]

theorem I2v_eq (d : Dev nD) : I2v m d = fun y => m (aLoc d) (Shape.reshapeEquiv shapeCasts_S16384_S16x1024 y) := by
  show (opIn (F := F)).result (V0 m d) i' = _
  exact (StableHlo.reshape_result main_arg0 main_v0 rfl shapeCasts_S16384_S16x1024 ⟨by decide, rfl⟩ ⟨by decide, rfl⟩ (V0 m d)).trans rfl

theorem RES_eq (d : Dev nD) : RES m d = Cert.Take.take (m (aLoc d)) (m (xLoc d)) := by
  have e : RES m d = fun i => OUT m (I2v m) d (Shape.reshapeEquiv shapeCasts_S16x1024_S16384 i) := by
    show (opOut (F := F)).result (V2 m d) r' = _
    refine (StableHlo.reshape_result main_v1 main_v2 rfl shapeCasts_S16x1024_S16384 ⟨by decide, rfl⟩ ⟨by decide, rfl⟩ (V2 m d)).trans ?_
    funext i
    show shapeCast S16384 (V2 m d o') shapeCasts_S16x1024_S16384 i = _
    rw [V2_o]; rfl
  rw [e]
  show (fun i => gat (I2v m d) (m (xLoc d)) (Shape.reshapeEquiv shapeCasts_S16x1024_S16384 i)) = _
  rw [I2v_eq]
  exact take_of_rows _ _ _ _

theorem rowsOK_of_inRange (h : ∀ d : Dev nD, Cert.Take.InRange (m (aLoc d))) : RowsOK (I2v m) := by
  intro d y
  rw [I2v_eq]
  exact h d _

/-! ## The claims about this program -/

section Claims

/-- From the precondition, every index word the call sees names a row of the table. -/
theorem rowsOK_of_pre [Cert.Pre_input_domain.Facts]
    (hpre : ∀ c : Dev nD, (Cert.Pre_input_domain.fn (F := F) (m ((c.tc : Thread nD τ).loc main_arg0)) (m ((c.tc : Thread nD τ).loc main_arg1))) = (fun _ => 1#1)) :
    RowsOK (I2v m) :=
  rowsOK_of_inRange m fun d => Cert.Take.inRange_of_pre _ _ (hpre d)

/-- The program's run with its result named: every weakly fair execution ends, nothing faulting, with the flat result
    the lookup of the table at the index array and the two arguments unchanged. -/
theorem run_value [∀ e, Nonempty (Elt F e)] [Cert.Pre_input_domain.Facts]
    (hpre : ∀ c : Dev nD, (Cert.Pre_input_domain.fn (F := F) (m ((c.tc : Thread nD τ).loc main_arg0)) (m ((c.tc : Thread nD τ).loc main_arg1))) = (fun _ => 1#1)) :
    θ_run (Cert.KernelIdeal.defs (F := F)) (Cert.KernelIdeal.threads (F := F)) ⟨m, fun _ => 0, ρ⟩ (fun r => ∀ c : Dev nD,
      r.2.mem ((c.tc : Thread nD τ).loc main_v2) = Cert.Take.take (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.KernelIdeal.defs _ _).mono (fun _ h c => ⟨(h c).1.trans (RES_eq m c), (h c).2.1, (h c).2.2⟩)
    (run_main m ρ (rowsOK_of_pre m hpre))

end Claims

end Cert.Proof.KI

end
-- ==== Proof.KBSetup.lean ====
/-
  The gather kernel's program as the launch theorem sees it, and what its handshakes carry.
  Sixteen vector subcores of the first SparseCore each take one row of the 16 x 1024 index array, the whole table to
  read, and one row of the 16 x 1024 result; row w of the result ends as the table read at the numbers row w of the
  index array holds. The index array and the table come back unchanged.
-/
import proofs.«207180_g34299608826617_cont_8to1_b_1974_12_alg».proof.Kernel
import proofs.«207180_g34299608826617_cont_8to1_b_1974_12_alg».proof.Proof.Gen.Kernel
import proofs.«207180_g34299608826617_cont_8to1_b_1974_12_alg».proof.Proof.Gen.Kernel.Skeleton
import proofs.«207180_g34299608826617_cont_8to1_b_1974_12_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The flat index array (an argument), the table (an argument), the index array as 16 rows, the result as 16 rows,
    the flat result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "iV" => (Memref.whole Cert.Kernel.main_v0_scv : Memref Cert.Kernel.sig Kind.scVector Space.hbm Cert.Kernel.S16x1024 EltTy.i32)
local notation "xV" => (Memref.whole Cert.Kernel.main_arg1_scv : Memref Cert.Kernel.sig Kind.scVector Space.hbm Cert.Kernel.S100000 EltTy.f32)
local notation "oV" => (Memref.whole Cert.Kernel.main_v1_scv : Memref Cert.Kernel.sig Kind.scVector Space.hbm Cert.Kernel.S16x1024 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

theorem rdiv : 16 ∣ S16x1024.size 0 := ⟨1, rfl⟩
/-- Row i of a 16 x 1024 array, as a rectangle. -/
abbrev row (i : Fin 16) : Rect S16x1024 := Rect.part (s := S16x1024) (a₀ := 0) rdiv i
abbrev iRowSet (i : Fin 16) : Finset S16x1024.Idx := ((iV).view.slice (row i)).set
abbrev oRowSet (i : Fin 16) : Finset S16x1024.Idx := ((oV).view.slice (row i)).set

/-- Tile i's read share of the table: the i-th of sixteen read tokens of the full share. -/
abbrev xq (i : Fin 16) : PosShare TreeShare := Transfers.shareTok fullShare 16 i

/-- Row-wise lookup: entry y of the result is the table at the number entry y of the index rows holds. -/
def gat {E : Type} (I : S16x1024.Idx → BitVec 32) (X : S100000.Idx → E) : S16x1024.Idx → E :=
  fun y => X (Cert.Take.slot (I y))

variable [FloatOps F]

/-! ## What the handshakes carry -/

variable (m : (ℓ : Loc nD τ sig) → Buf (Elt F) ℓ) (ρ : Dev nD → PrngReg)
-- `I2 d`: the contents of the 16-row index array at the call (what the host's reshape left there).
variable (I2 : (d : Dev nD) → Buf (Elt F) (iLoc d))

abbrev iPts (d : Dev nD) : sProp 𝕄 := iLoc d ↦{fullShare} I2 d
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (i : Fin 16) : sProp 𝕄 := iLoc d ↦[iRowSet i]{fullShare} I2 d
abbrev xShPts (d : Dev nD) (i : Fin 16) : sProp 𝕄 := xLoc d ↦{xq i} m (xLoc d)
abbrev oRowPts (d : Dev nD) (i : Fin 16) (f : Buf (Elt F) (oLoc d)) : sProp 𝕄 := oLoc d ↦[oRowSet i]{fullShare} f

/-- The result rows the call leaves: the lookup of the table at the index rows. -/
abbrev OUT (d : Dev nD) : Buf (Elt F) (oLoc d) := gat (I2 d) (m (xLoc d))

/-- The one call takes the index rows, the table and the result rows whole; each task its row of the index rows, a read
    share of the table and its row of the result, and brings them back, the result's row holding the lookup. -/
def P : (K (F := F)).Pay (nD := nD) (Val := Elt F) (Name := ℕ) (U := UU) where
  st := fun q d _ => match q with | 0 => iprop(iPts I2 d ∗ xPts m d ∗ oPts d (m (oLoc d)))
  dn := fun q d _ => match q with | 0 => iprop(iPts I2 d ∗ xPts m d ∗ oPts d (OUT m I2 d))
  go := fun q d _ i => match q with
    | 0 => iprop(iRowPts I2 d (Fin.cast nSub_zero i) ∗ xShPts m d (Fin.cast nSub_zero i) ∗ oRowPts d (Fin.cast nSub_zero i) (m (oLoc d)))
  td := fun q d _ i => match q with
    | 0 => iprop(iRowPts I2 d (Fin.cast nSub_zero i) ∗ xShPts m d (Fin.cast nSub_zero i) ∗ oRowPts d (Fin.cast nSub_zero i) (OUT m I2 d))
  x := fun _ _ => iprop(emp)

instance P_storable : (P (F := F) m I2).IsStorable where
  st q d _ := match q with
    | 0 => (inferInstance : BI.Storable (upEmb : UEmb _ 𝕄) iprop(iPts I2 d ∗ xPts m d ∗ oPts d (m (oLoc d))))
  dn q d _ := match q with
    | 0 => (inferInstance : BI.Storable (upEmb : UEmb _ 𝕄) iprop(iPts I2 d ∗ xPts m d ∗ oPts d (OUT m I2 d)))
  go q d _ i := match q with
    | 0 => (inferInstance : BI.Storable (upEmb : UEmb _ 𝕄)
      iprop(iRowPts I2 d (Fin.cast nSub_zero i) ∗ xShPts m d (Fin.cast nSub_zero i) ∗ oRowPts d (Fin.cast nSub_zero i) (m (oLoc d))))
  td q d _ i := match q with
    | 0 => (inferInstance : BI.Storable (upEmb : UEmb _ 𝕄)
      iprop(iRowPts I2 d (Fin.cast nSub_zero i) ∗ xShPts m d (Fin.cast nSub_zero i) ∗ oRowPts d (Fin.cast nSub_zero i) (OUT m I2 d)))

/-- What the proof asks of the index rows at the call: every word names a row of the table. -/
def RowsOK : Prop := ∀ (d : Dev nD) (y : S16x1024.Idx), (I2 d y).toNat < 100000

/-! ## A tile, as the task addresses its storage -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The row the task slices out of a 16 x 1024 array, through the printed offset function. -/
abbrev rowK (L : grid0.Coords) : Rect S16x1024 := Rect.unit (s := S16x1024) (k0_off1 L) S1x1024.size (k0_off1_inb L)
/-- Row `L 1` of the index rows and of the result rows, squeezed, and all of the table, as the task addresses them. -/
abbrev iRowK (L : grid0.Coords) : Memref sig .scVector .hbm S1024 .i32 := ((iV).slice (rowK L) (fun _ => rfl)).squeeze S1024 squeezes_S1x1024_S1024
abbrev oRowK (L : grid0.Coords) : Memref sig .scVector .hbm S1024 .f32 := ((oV).slice (rowK L) (fun _ => rfl)).squeeze S1024 squeezes_S1x1024_S1024
abbrev xAllK : Memref sig .scVector .hbm S100000 .f32 := (xV).slice (Rect.unit (s := S100000) ![0] S100000.size inb_S100000_S100000_0) (fun _ => rfl)

omit [FloatOps F] in
/-- The task's row is row `L 1` of the split: the first SparseCore is the only one, so the offset is the subcore's number. -/
theorem rowK_eq : rowK L = row (jL L) := by
  unfold rowK row Rect.part Rect.block
  have h0 : (L 0).val = 0 := by have h : (L 0).val < 1 := (L 0).isLt; omega
  congr 1 <;> funext a
  · rw [k0_off1_eq]
    match a with
    | 0 => simp [Shape.partIx, Shape.partSize, h0]
    | 1 => simp [Shape.partIx, Shape.partSize]
  · match a with
    | 0 => simp [Shape.partSize]
    | 1 => simp [Shape.partSize]

omit [FloatOps F] in
theorem set_iRowK : (iRowK L).view.set = iRowSet (jL L) := by
  show (((iV).view.slice (rowK L)).reshape S1024 squeezes_S1x1024_S1024.numel_eq).set = ((iV).view.slice (row (jL L))).set
  rw [View.set_reshape]
  exact rowK_eq L ▸ rfl
omit [FloatOps F] in
theorem set_oRowK : (oRowK L).view.set = oRowSet (jL L) := by
  show (((oV).view.slice (rowK L)).reshape S1024 squeezes_S1x1024_S1024.numel_eq).set = ((oV).view.slice (row (jL L))).set
  rw [View.set_reshape]
  exact rowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three DMA semaphores: the gather's, the index fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.KB

end
-- ==== Proof.KBBody.lean ====
/-
  One task of the gather kernel, with its value. A vector subcore fetches its row of 1024 index words into its index
  scratch, gathers into its row scratch the table's entries those words name, and writes the row scratch out to its row
  of the 16 x 1024 result. Each word is below the table's extent, so the gather completes and lands, at place j, the
  table's entry at the number word j holds; the write-out carries that to place j of the task's row of the result,
  which is the same place of the array as place j of its row of index words. So the row ends as that row of the lookup.
-/
import proofs.«207180_g34299608826617_cont_8to1_b_1974_12_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S16x1024 EltTy.i32)
local notation "xV" => (Memref.whole Cert.Kernel.main_arg1_scv : Memref Cert.Kernel.sig Kind.scVector Space.hbm Cert.Kernel.S100000 EltTy.f32)
local notation "oV" => (Memref.whole Cert.Kernel.main_v1_scv : Memref Cert.Kernel.sig Kind.scVector Space.hbm Cert.Kernel.S16x1024 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

variable [FloatOps F]
variable (m : (ℓ : Loc nD τ sig) → Buf (Elt F) ℓ) (ρ : Dev nD → PrngReg)
variable (I2 : (d : Dev nD) → Buf (Elt F) (iLoc d))

section Tile
variable (d : Dev nD) (L : grid0.Coords)

omit [FloatOps F] in
/-- Reading the task's row of the index rows: entry j is the array's word at the row's j-th place. -/
theorem read_iRowK (f : Buf (Elt F) (iLoc d)) (j : S1024.Idx) :
    (iRowK L).view.read (Elt F) f j = f ((iRowK L).view.emb j) :=
  (View.read_apply _ _).trans (cast_eq _ _)

omit [FloatOps F] in
/-- Whatever the index scratch held before, once the task's row of index words has landed in it every word it holds
    is below the table's extent. -/
theorem idx_inb (hpre : RowsOK I2) (fs : Buf (Elt F) ((V d (cV L) (jV L)).loc cc0_scratch0)) :
    ∀ x, ((sV).view.read (Elt F) (View.write (Elt F) (sV).view fs
        (ReadAs.same.apply ((iRowK L).view.read (Elt F) (I2 d))) Finset.univ) x).toNat
      < S100000.size gathers_S100000_S1024.axis := by
  intro x
  change ((View.whole cc0_scratch0).read (Elt F) ((View.whole cc0_scratch0).write (Elt F) fs
    (ReadAs.same.apply ((iRowK L).view.read (Elt F) (I2 d))) Finset.univ) x).toNat < _
  rw [View.write_whole_univ, View.read_whole, ReadAs.apply_same, read_iRowK]
  exact hpre d _

omit [FloatOps F] in
/-- The task's row of the index rows and its row of the result sit at the same places of a 16 x 1024 array. -/
theorem emb_iRowK_eq (j : S1024.Idx) : ((iRowK L).view.emb j : S16x1024.Idx) = (oRowK L).view.emb j := rfl

omit [FloatOps F] in
/-- The table, sliced whole from its first entry, is addressed at its own indices. -/
theorem emb_xAllK (z : S100000.Idx) : ((xAllK).view.emb z : S100000.Idx) = z := by
  funext b; apply Fin.ext
  show (![0] : Fin 1 → ℕ) b + 1 * (z b).val = (z b).val
  simp

omit [FloatOps F] in
/-- Reading the table through that slice reads the table. -/
theorem read_xAllK (f : Buf (Elt F) (xLoc d)) (z : S100000.Idx) : (xAllK).view.read (Elt F) f z = f z :=
  ((View.read_apply _ _).trans (cast_eq _ _)).trans (congrArg f (emb_xAllK z))

omit [FloatOps F] in
/-- In a flat list of 1024 words, the word at row-major position `j 0` is the word at `j`. -/
theorem rowMajor_symm_flat (j : S1024.Idx) (h : S1024.size gathers_S100000_S1024.axis' = S1024.numel) :
    S1024.rowMajor.symm ((j gathers_S100000_S1024.axis').cast h) = j := by
  rw [Equiv.symm_apply_eq]; apply Fin.ext
  rw [Shape.rowMajor_val_one]
  rfl

omit [FloatOps F] in
/-- What the gather lands at place j of the row scratch: the table's entry at the number the j-th word of the task's
    index row holds. The source index of a rank-one gather is the named row itself; the list's j-th word is the index
    array's word at the row's j-th place; that word is below the table's extent, so it names the entry at its value. -/
theorem gathered_at (hpre : RowsOK I2) (fs : Buf (Elt F) ((V d (cV L) (jV L)).loc cc0_scratch0))
    (hn : S1024.numel = S1024.size gathers_S100000_S1024.axis')
    (hin : ∀ x, ((sV).view.read (Elt F) (View.write (Elt F) (sV).view fs
        (ReadAs.same.apply ((iRowK L).view.read (Elt F) (I2 d))) Finset.univ) x).toNat
      < S100000.size gathers_S100000_S1024.axis) (j : S1024.Idx) :
    SparseCore.gatherPayload gathers_S100000_S1024 ((xAllK).view.read (Elt F) (m (xLoc d)))
        (SparseCore.rows ((sV).view.read (Elt F) (View.write (Elt F) (sV).view fs
          (ReadAs.same.apply ((iRowK L).view.read (Elt F) (I2 d))) Finset.univ)) hn hin) j
      = m (xLoc d) (Cert.Take.slot (I2 d ((iRowK L).view.emb j))) := by
  unfold SparseCore.gatherPayload
  rw [read_xAllK, Cert.Take.slot_of_lt (hpre d _)]
  refine congrArg (m (xLoc d)) ?_
  funext b
  have hb : b = gathers_S100000_S1024.axis := Fin.ext (by have h : b.val < 1 := b.isLt; show b.val = 0; omega)
  subst hb
  rw [Shape.Gathers.idx_axis]
  apply Fin.ext
  show ((View.whole cc0_scratch0).read (Elt F) ((View.whole cc0_scratch0).write (Elt F) fs
      (ReadAs.same.apply ((iRowK L).view.read (Elt F) (I2 d))) Finset.univ)
        (S1024.rowMajor.symm ((j gathers_S100000_S1024.axis').cast hn.symm))).toNat = (I2 d ((iRowK L).view.emb j)).toNat
  rw [View.write_whole_univ, View.read_whole, ReadAs.apply_same, read_iRowK, rowMajor_symm_flat]

omit [FloatOps F] in
/-- What the write-out carries at place j: the row scratch as the gather left it, read back whole. -/
theorem landed_at (hpre : RowsOK I2) (fs : Buf (Elt F) ((V d (cV L) (jV L)).loc cc0_scratch0))
    (fr : Buf (Elt F) ((V d (cV L) (jV L)).loc cc0_scratch1))
    (hn : S1024.numel = S1024.size gathers_S100000_S1024.axis')
    (hin : ∀ x, ((sV).view.read (Elt F) (View.write (Elt F) (sV).view fs
        (ReadAs.same.apply ((iRowK L).view.read (Elt F) (I2 d))) Finset.univ) x).toNat
      < S100000.size gathers_S100000_S1024.axis) (j : S1024.Idx) :
    ReadAs.same.apply ((rV).view.read (Elt F) ((rV).view.writes (Elt F) fr
        [⟨Rect.whole S1024, SparseCore.gatherPayload gathers_S100000_S1024 ((xAllK).view.read (Elt F) (m (xLoc d)))
          (SparseCore.rows ((sV).view.read (Elt F) (View.write (Elt F) (sV).view fs
            (ReadAs.same.apply ((iRowK L).view.read (Elt F) (I2 d))) Finset.univ)) hn hin)⟩])) j
      = m (xLoc d) (Cert.Take.slot (I2 d ((iRowK L).view.emb j))) :=
  (congrFun (View.read_writes_whole (rV).view fr _) j).trans (gathered_at m I2 d L hpre fs hn hin j)

omit [FloatOps F] in
/-- The task's row of the result, written whole with a payload that is the lookup place by place, is that row of
    the lookup: every element of the row is the row's j-th place for one j, where the write left the payload's j-th
    entry, and the index row's j-th place is the same place of the array. -/
theorem out_row (P : S1024.Idx → Elt F .f32)
    (hP : ∀ j, P j = m (xLoc d) (Cert.Take.slot (I2 d ((iRowK L).view.emb j)))) :
    ((oRowK L).view.loc (V d (cV L) (jV L)) ↦[(oRowK L).view.set]{fullShare}
        (oRowK L).view.writes (Elt F) (m (oLoc d)) [⟨Rect.whole S1024, P⟩] : sProp 𝕄)
      = oLoc d ↦[oRowSet (jL L)]{fullShare} OUT m I2 d := by
  rw [← pts_oRowK (F := F) d L (OUT m I2 d)]
  refine pointsTo_congr fun y hy => ?_
  obtain ⟨j, -, rfl⟩ := Finset.mem_map.mp hy
  have h1 : (oRowK L).view.writes (Elt F) (m (oLoc d)) [⟨Rect.whole S1024, P⟩] ((oRowK L).view.emb j) = P j :=
    (cast_eq _ _).symm.trans ((View.read_apply _ _).symm.trans (congrFun (View.read_writes_whole _ _ P) j))
  exact h1.trans ((hP j).trans rfl)

set_option maxHeartbeats 4000000 in
/-- The task on vector subcore `(L 0, L 1)`: it fetches its row of index words, gathers the table's entries they name
    into its row scratch, and writes that out to its row of the result, which then holds the lookup. -/
theorem tile_body (hF : (K (F := F)).Facts) (hpre : RowsOK I2) (O : CellTallies nD τ sig (HIx 1)) (W : Waits sig (HIx 1)) (hO : ∀ g, O g none = 0) :
    iprop(levAts (K (F := F)).L (K (F := F)).lev ∗ emp
        ∗ (iRowPts I2 d (jL L) ∗ xShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L iV (Memref.isWhole_whole _) xV (Memref.isWhole_whole _) oV (Memref.isWhole_whole _)
            sV (Memref.isWhole_whole _) rV (Memref.isWhole_whole _) cc0_scratch2 cc0_scoped0 cc0_scoped1)
          fun _ => iprop((iRowPts I2 d (jL L) ∗ xShPts m d (jL L) ∗ oRowPts d (jL L) (OUT m I2 d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  -- the task as its sequence of memory operations; the subcore's own scratch buffers and its three DMA cells named
  rw [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi1 := (Entails.of_eq (pts_iRowK (F := F) d L _).symm) $$ Hi
  ihave Ho1 := (Entails.of_eq (pts_oRowK (F := F) d L _).symm) $$ Ho
  ihave Hx1 := (Entails.of_eq (pts_xV (F := F) d L _ _).symm) $$ Hx
  ihave Hs1 := (Entails.of_eq (pts_sV (F := F) d L _).symm) $$ Hs
  ihave Hr1 := (Entails.of_eq (pts_rV (F := F) d L _).symm) $$ Hr
  -- the words the index fetch lands name rows of the table, whatever the index scratch held before
  have hin := idx_inb I2 d L hpre fs
  sl_exec
  sl_step
  -- the row of the result now holds, place by place, the table at the number the index row holds there
  ihave Ho2 := (Entails.of_eq (out_row m I2 d L (tile_body.sl.dma0_1 m I2 d L fs fr hin)
    fun j => landed_at m I2 d L hpre fs fr _ hin j)) $$ Ho1
  isplitl [Hi1 Hx1 Ho2]
  · isplitl [Hi1]; · iapply (Entails.of_eq (pts_iRowK (F := F) d L _)); iexact Hi1
    isplitl [Hx1]; · iexact Hx1
    iexact Ho2
  isplitl [Hs1 Hr1 Hbufs]
  · isplitl [Hs1]; · iexists _; iexact Hs1
    isplitl [Hr1]; · iexists _; iexact Hr1
    iexact Hbufs
  isplitl [HsemG HsemA HsemB Hsems]
  · isplitl [HsemG]; · iexact HsemG
    isplitl [HsemA]; · iexact HsemA
    isplitl [HsemB]; · iexact HsemB
    iexact Hsems
  iexists _; isplitr
  rotate_left
  · iexact HO
  -- the three waits recorded are all at index none
  ipureintro; intro p hp
  simp only [Finset.mem_insert] at hp
  rcases hp with rfl | rfl | rfl | hp
  · exact Or.inr rfl
  · exact Or.inr rfl
  · exact Or.inr rfl
  · exact Or.inl hp

end Tile

end Cert.Proof.KB

end
-- ==== Proof.KBLaunch.lean ====
/-
  The gather kernel's run: the obligation of one task wrapped for the launch, how the call's operands split among the
  sixteen tasks and join again, the launch element, @main on the TensorCore (the index array re-laid as 16 rows, the
  call, the result rows re-laid flat), and the value: the flat result is the table read at the index array's words.
-/
import proofs.«207180_g34299608826617_cont_8to1_b_1974_12_alg».proof.Proof.KBSetup
import proofs.«207180_g34299608826617_cont_8to1_b_1974_12_alg».proof.Proof.KBBody
import proofs.«207180_g34299608826617_cont_8to1_b_1974_12_alg».proof.Proof.PreRange
import proofs.«207180_g34299608826617_cont_8to1_b_1974_12_alg».proof.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S16x1024 EltTy.i32)
local notation "xV" => (Memref.whole Cert.Kernel.main_arg1_scv : Memref Cert.Kernel.sig Kind.scVector Space.hbm Cert.Kernel.S100000 EltTy.f32)
local notation "oV" => (Memref.whole Cert.Kernel.main_v1_scv : Memref Cert.Kernel.sig Kind.scVector Space.hbm Cert.Kernel.S16x1024 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

variable [FloatOps F]
variable (m : (ℓ : Loc nD τ sig) → Buf (Elt F) ℓ) (ρ : Dev nD → PrngReg)
variable (I2 : (d : Dev nD) → Buf (Elt F) (iLoc d))

/-! ## The obligation of one task -/

section Obl
variable (d : Dev nD)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : RowsOK I2) : (K (F := F)).TileObl (D (F := F)) 𝒱 (P m I2) v₀ 0 := by
  intro d c i O W hO _ _
  simp only [show (P m I2).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m I2 d (coordsV ⟨_, hci.1⟩ ⟨_, hci.2⟩) hF hpre O W hO).trans (wp_mono frame _ _ fun _ => obl_post)

end Obl

/-! ## The rows split and join; the read shares of the table -/

omit [FloatOps F] in
theorem iRowSet_eq (i : Fin 16) : iRowSet i = (row i).set := by
  show ((View.whole (main_v0_scv : Ref sig .scVector)).slice (row i)).set = _
  rw [View.set_slice]; exact Finset.map_refl
omit [FloatOps F] in
theorem oRowSet_eq (i : Fin 16) : oRowSet i = (row i).set := by
  show ((View.whole (main_v1_scv : Ref sig .scVector)).slice (row i)).set = _
  rw [View.set_slice]; exact Finset.map_refl
omit [FloatOps F] in
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint rdiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint rdiv h
omit [FloatOps F] in
theorem irows_cover : (Finset.univ : Finset (Fin 16)).biUnion iRowSet = Finset.univ :=
  (Finset.biUnion_congr rfl fun i _ => iRowSet_eq i).trans (Rect.biUnion_part rdiv)
omit [FloatOps F] in
theorem orows_cover : (Finset.univ : Finset (Fin 16)).biUnion oRowSet = Finset.univ :=
  (Finset.biUnion_congr rfl fun i _ => oRowSet_eq i).trans (Rect.biUnion_part rdiv)

omit [FloatOps F] in
theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands go out to the sixteen tasks — the index rows and the result rows row by row, the table as
    sixteen read tokens of its full share, the rest of the share staying behind — and come back joined, the result
    rows at the one lookup every task wrote its row of. -/
theorem vecSplit : (K (F := F)).VecSplit' (P m I2) 0 := by
  intro d c
  show iprop(iPts I2 d ∗ xPts m d ∗ oPts d (m (oLoc d))) ⊢ |={Set.univ}=> iprop(
      (bigSep Finset.univ fun i : Fin ((K (F := F)).nSub 0) =>
        iprop(iRowPts I2 d (Fin.cast nSub_zero i) ∗ xShPts m d (Fin.cast nSub_zero i) ∗ oRowPts d (Fin.cast nSub_zero i) (m (oLoc d))))
      ∗ ((bigSep Finset.univ fun i : Fin ((K (F := F)).nSub 0) =>
          iprop(iRowPts I2 d (Fin.cast nSub_zero i) ∗ xShPts m d (Fin.cast nSub_zero i) ∗ oRowPts d (Fin.cast nSub_zero i) (OUT m I2 d)))
          -∗ iprop(iPts I2 d ∗ xPts m d ∗ oPts d (OUT m I2 d))))
  rw [bigSep_tasks (F := F) (fun i => iprop(iRowPts I2 d i ∗ xShPts m d i ∗ oRowPts d i (m (oLoc d)))),
    bigSep_tasks (F := F) (fun i => iprop(iRowPts I2 d i ∗ xShPts m d i ∗ oRowPts d i (OUT m I2 d))), bigSep_sep', bigSep_sep', bigSep_sep', bigSep_sep']
  unfold iPts xPts oPts iRowPts xShPts oRowPts
  rw [iPts_rows, oPts_rows, oPts_rows]
  iintro ⟨Hi, Hx, Ho⟩
  ihave Hx' := (Transfers.pointsTo_toks (ℓ := xLoc d) (S := Finset.univ) (f := m (xLoc d)) fullShare 16).1 $$ Hx
  icases Hx' with ⟨Hxrest, Hxs⟩
  imodintro
  isplitl [Hi Hxs Ho]
  · isplitl [Hi]; · iexact Hi
    isplitl [Hxs]; · iexact Hxs
    iexact Ho
  iintro ⟨Hi, Hxs, Ho⟩
  isplitl [Hi]; · iexact Hi
  isplitl [Hxrest Hxs]
  · iapply (Transfers.pointsTo_toks (ℓ := xLoc d) (S := Finset.univ) (f := m (xLoc d)) fullShare 16).2
    isplitl [Hxrest]; · iexact Hxrest
    iexact Hxs
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m I2).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m I2).x q thr) = bigSep Finset.univ fun _ => iprop(emp) from
    bigSep_congr fun _ _ => bigSep_univ_of_subsingleton (0 : Fin 1), bigSep_emp']
  iempintro

/-! ## @main on the TensorCore: the index array re-laid as 16 rows, the call, the result rows re-laid flat -/

open Idealize.ShloMosaic.StableHlo (held held_split held_sdiff_result wp_hlo_within)

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 rfl shapeCasts_S16384_S16x1024
abbrev opOut : HloOp τ sig (Elt F) := StableHlo.reshape main_v1 main_v2 rfl shapeCasts_S16x1024_S16384

/-- The TensorCore's five arrays, all unscoped. -/
abbrev S5 : Finset (DevRef τ sig) := {a', x', i', o', r'}

omit [FloatOps F] in
theorem held_S5 (d : Dev nD) (W : Valuation τ sig (Elt F)) :
    (held (T d) S5 W : sProp 𝕄) = iprop((aLoc d ↦{fullShare} W a') ∗ (xLoc d ↦{fullShare} W x') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first re-laying; after the call; after the second re-laying. -/
def V0 (d : Dev nD) : Valuation τ sig (Elt F) := fun b => m (d, b)
abbrev V1 (d : Dev nD) : Valuation τ sig (Elt F) := (opIn (F := F)).result (V0 m d)
/-- The 16 rows of index words the call sees. -/
def I2v (d : Dev nD) : Buf (Elt F) (iLoc d) := V1 m d i'
abbrev V2 (d : Dev nD) : Valuation τ sig (Elt F) := Function.update (V1 m d) o' (OUT m (I2v m) d)
abbrev V3 (d : Dev nD) : Valuation τ sig (Elt F) := (opOut (F := F)).result (V2 m d)
/-- The flat result the program ends with. -/
def RES (d : Dev nD) : Buf (Elt F) (rLoc d) := V3 m d r'

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) := (opIn (F := F)).result_of_not_mem (V0 m d) (b := a') (show a' ∉ ({i'} : Finset (DevRef τ sig)) by decide)
theorem V1_x (d : Dev nD) : V1 m d x' = m (xLoc d) := (opIn (F := F)).result_of_not_mem (V0 m d) (b := x') (show x' ∉ ({i'} : Finset (DevRef τ sig)) by decide)
theorem V1_i (d : Dev nD) : V1 m d i' = I2v m d := rfl
theorem V1_o (d : Dev nD) : V1 m d o' = m (oLoc d) := (opIn (F := F)).result_of_not_mem (V0 m d) (b := o') (show o' ∉ ({i'} : Finset (DevRef τ sig)) by decide)
theorem V1_r (d : Dev nD) : V1 m d r' = m (rLoc d) := (opIn (F := F)).result_of_not_mem (V0 m d) (b := r') (show r' ∉ ({i'} : Finset (DevRef τ sig)) by decide)

theorem V2_a (d : Dev nD) : V2 m d a' = m (aLoc d) := (Function.update_of_ne (show a' ≠ o' by decide) _ _).trans (V1_a m d)
theorem V2_x (d : Dev nD) : V2 m d x' = m (xLoc d) := (Function.update_of_ne (show x' ≠ o' by decide) _ _).trans (V1_x m d)
theorem V2_i (d : Dev nD) : V2 m d i' = I2v m d := Function.update_of_ne (show i' ≠ o' by decide) _ _
theorem V2_o (d : Dev nD) : V2 m d o' = OUT m (I2v m) d := Function.update_self _ _ _
theorem V2_r (d : Dev nD) : V2 m d r' = m (rLoc d) := (Function.update_of_ne (show r' ≠ o' by decide) _ _).trans (V1_r m d)

theorem V3_a (d : Dev nD) : V3 m d a' = m (aLoc d) :=
  ((opOut (F := F)).result_of_not_mem (V2 m d) (b := a') (show a' ∉ ({r'} : Finset (DevRef τ sig)) by decide)).trans (V2_a m d)
theorem V3_x (d : Dev nD) : V3 m d x' = m (xLoc d) :=
  ((opOut (F := F)).result_of_not_mem (V2 m d) (b := x') (show x' ∉ ({r'} : Finset (DevRef τ sig)) by decide)).trans (V2_x m d)

theorem hIn : (opIn (F := F)).bufs ⊆ S5 := show ({a', i'} : Finset (DevRef τ sig)) ⊆ S5 by decide
theorem hOut : (opOut (F := F)).bufs ⊆ S5 := show ({o', r'} : Finset (DevRef τ sig)) ⊆ S5 by decide

theorem st0_eq (d : Dev nD) : (bigSep Finset.univ fun c : Fin ((K (F := F)).nCore 0) => (P m (I2v m)).st 0 d c)
    = iprop(iPts (I2v m) d ∗ xPts m d ∗ oPts d (m (oLoc d))) :=
  bigSep_univ_of_subsingleton (0 : Fin 1)
theorem dn0_eq (d : Dev nD) : (bigSep Finset.univ fun c : Fin ((K (F := F)).nCore 0) => (P m (I2v m)).dn 0 d c)
    = iprop(iPts (I2v m) d ∗ xPts m d ∗ oPts d (OUT m (I2v m) d)) :=
  bigSep_univ_of_subsingleton (0 : Fin 1)

/-- What @main leaves the claim: the two arguments at their launch contents, the flat result at `RES`. -/
abbrev FIN (d : Dev nD) : sProp 𝕄 := iprop((aLoc d ↦{fullShare} m (aLoc d)) ∗ xPts m d ∗ rLoc d ↦{fullShare} RES m d)

set_option maxHeartbeats 1000000 in
/-- @main on device `d`'s TensorCore: the re-laying of the index array, the call, the re-laying of the result. -/
theorem hmain (κ : GSem nD τ sig → ℕ) (d : Dev nD) :
    iprop((K (F := F)).ctx EH (P m (I2v m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_S5 (F := F) d (V1 m d))) $$ Hheld
  icases Hh with ⟨Ha, Hx, Hi, Ho, Hr⟩
  rw [V1_a, V1_x, V1_i, V1_o, V1_r]
  iapply ((K (F := F)).wp_run (D (F := F)) 𝒱 (EH := EH) (P := P m (I2v m)) κ d 0) $$ [Hst Hx Hi Ho Hb Ha Hr]
  isplitr; · iexact Hctx
  isplitl [Hst]; · iexact Hst
  isplitl [Hx Hi Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  iapply (wp_hlo_within 𝒱 (SparseCore.T d) none Set.univ (op := opOut) (S := S5) hOut (V := V2 m d)) $$ [Hb Ha Hx Hi Ho Hr]
  · isplitl [Hb]; · iexact Hb
    rw [held_S5, V2_a, V2_x, V2_i, V2_o, V2_r]
    isplitl [Ha]; · iexact Ha
    isplitl [Hx]; · iexact Hx
    isplitl [Hi]; · iexact Hi
    isplitl [Ho]; · iexact Ho
    iexact Hr
  iintro ⟨Hb, Hheld⟩
  ihave Hh := (Entails.of_eq (held_S5 (F := F) d (V3 m d))) $$ Hheld
  icases Hh with ⟨Ha, Hx, -, -, Hr⟩
  rw [V3_a, V3_x]
  rw [wp_ret]; imodintro; imodintro
  isplitl [Hst]; · iexact Hst
  isplitl [Ha]; · iexact Ha
  isplitl [Hx]; · iexact Hx
  iexact Hr

def fq (d : Dev nD) (s' : Phys nD τ sig (Elt F)) : Prop :=
  s'.mem.mem (rLoc d) = RES m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (rLoc c) = RES m c ∧ r.2.mem (aLoc c) = m (aLoc c) ∧ r.2.mem (xLoc c) = m (xLoc c)

theorem run_main [∀ e, Nonempty (Elt F e)] (hpre : RowsOK (I2v m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (I2v m)) facts v₀
    (fun q hq => match q with | 0 => nomatch hq)
    (fun q _ => match q with | 0 => tileObl m (I2v m) facts hpre)
    (fun q _ => match q with | 0 => SparseCore.Cfg.VecSplit.of_plain (vecSplit m (I2v m)))
    m ρ main (fun _ => iprop(emp)) (FIN m) (u₀ (F := F)) (sep_elim_left.trans (hu₀ m (I2v m))) (hmain m ρ) (fq m) (hfin m) (QC m) (fun _ h => h)

/-! ## The value: the flat result is the lookup -/

omit [FloatOps F] in
/-- Re-laying the flat index array as 16 rows, looking up row-wise, and re-laying the rows flat is the flat lookup:
    the two re-layings match positions in row-major order, and there and back is the identity. -/
theorem take_of_rows {E : Type} (a : S16384.Idx → BitVec 32) (X : S100000.Idx → E)
    (h1 : S16384.ShapeCasts S16x1024) (h2 : S16x1024.ShapeCasts S16384) :
    (fun i => gat (fun y => a (Shape.reshapeEquiv h1 y)) X (Shape.reshapeEquiv h2 i)) = Cert.Take.take a X := by
  funext i
  show X (Cert.Take.slot (a (Shape.reshapeEquiv h1 (Shape.reshapeEquiv h2 i)))) = X (Cert.Take.slot (a i))
  rw [Shape.reshapeEquiv_reshapeEquiv, Shape.reshapeEquiv_self]

theorem I2v_eq (d : Dev nD) : I2v m d = fun y => m (aLoc d) (Shape.reshapeEquiv shapeCasts_S16384_S16x1024 y) := by
  show (opIn (F := F)).result (V0 m d) i' = _
  exact (StableHlo.reshape_result main_arg0 main_v0 rfl shapeCasts_S16384_S16x1024 ⟨by decide, rfl⟩ ⟨by decide, rfl⟩ (V0 m d)).trans rfl

theorem RES_eq (d : Dev nD) : RES m d = Cert.Take.take (m (aLoc d)) (m (xLoc d)) := by
  have e : RES m d = fun i => OUT m (I2v m) d (Shape.reshapeEquiv shapeCasts_S16x1024_S16384 i) := by
    show (opOut (F := F)).result (V2 m d) r' = _
    refine (StableHlo.reshape_result main_v1 main_v2 rfl shapeCasts_S16x1024_S16384 ⟨by decide, rfl⟩ ⟨by decide, rfl⟩ (V2 m d)).trans ?_
    funext i
    show shapeCast S16384 (V2 m d o') shapeCasts_S16x1024_S16384 i = _
    rw [V2_o]; rfl
  rw [e]
  show (fun i => gat (I2v m d) (m (xLoc d)) (Shape.reshapeEquiv shapeCasts_S16x1024_S16384 i)) = _
  rw [I2v_eq]
  exact take_of_rows _ _ _ _

theorem rowsOK_of_inRange (h : ∀ d : Dev nD, Cert.Take.InRange (m (aLoc d))) : RowsOK (I2v m) := by
  intro d y
  rw [I2v_eq]
  exact h d _

/-! ## The claims about this program -/

section Claims

/-- From the precondition, every index word the call sees names a row of the table. -/
theorem rowsOK_of_pre [Cert.Pre_input_domain.Facts]
    (hpre : ∀ c : Dev nD, (Cert.Pre_input_domain.fn (F := F) (m ((c.tc : Thread nD τ).loc main_arg0)) (m ((c.tc : Thread nD τ).loc main_arg1))) = (fun _ => 1#1)) :
    RowsOK (I2v m) :=
  rowsOK_of_inRange m fun d => Cert.Take.inRange_of_pre _ _ (hpre d)

/-- The program's run with its result named: every weakly fair execution ends, nothing faulting, with the flat result
    the lookup of the table at the index array and the two arguments unchanged. -/
theorem run_value [∀ e, Nonempty (Elt F e)] [Cert.Pre_input_domain.Facts]
    (hpre : ∀ c : Dev nD, (Cert.Pre_input_domain.fn (F := F) (m ((c.tc : Thread nD τ).loc main_arg0)) (m ((c.tc : Thread nD τ).loc main_arg1))) = (fun _ => 1#1)) :
    θ_run (Cert.Kernel.defs (F := F)) (Cert.Kernel.threads (F := F)) ⟨m, fun _ => 0, ρ⟩ (fun r => ∀ c : Dev nD,
      r.2.mem ((c.tc : Thread nD τ).loc main_v2) = Cert.Take.take (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.Kernel.defs _ _).mono (fun _ h c => ⟨(h c).1.trans (RES_eq m c), (h c).2.1, (h c).2.2⟩)
    (run_main m ρ (rowsOK_of_pre m hpre))

end Claims

end Cert.Proof.KB

end
-- ==== Proof.RefRun.lean ====
/-
  The lookup's reference side: what the host program computes, and its run.

  The program reads 16384 index words and a flat table of 100000 entries. A word that reads negative as a signed
  integer has the table's extent added; the adjusted word w' is then tested for 0 ≤ w' ≤ 99999 (signed), the test
  folded by `and` over a unit axis; the table is gathered at w' (a gather reads its start index signed and clamps it
  into [0, 99999]); and the result is the gathered entry where the test holds, a fixed fill value elsewhere.

  First the program is written as one straight line of its twenty-two operations (the two inner functions' bodies
  substituted where they are called), so that every execution terminates with each buffer at the fold of the operations
  over the launch contents; the fold at the result buffer is the composed term `refTerm` of the two argument arrays,
  and the argument buffers are written by no operation.

  Then `refTerm` is read at a position i under the hypothesis that every index word, read unsigned, is below 100000.
  Such a word has its top bit clear, so it reads the same signed: it is not negative (the adjustment keeps it), it
  passes both bound tests (the folded test is 1 and the final choice keeps the gathered entry), and the clamp of the
  gather leaves it unchanged. So the result at i is the table's entry at the number the i-th word holds, which is the
  specification's `take`.
-/
import proofs.«207180_g34299608826617_cont_8to1_b_1974_12_alg».proof.Defs
import proofs.«207180_g34299608826617_cont_8to1_b_1974_12_alg».proof.Proof.Gen.ReferenceIdeal
import proofs.«207180_g34299608826617_cont_8to1_b_1974_12_alg».proof.Proof.Spec
import Idealize.ShloMosaic.Lib.StableHlo.Run
import Idealize.ShloMosaic.Lib.ValueIdx
import Idealize.ShloMosaic.Lib.ReduceAll

noncomputable section

namespace Cert.ReferenceIdeal.RefValue

open Cert.ReferenceIdeal Idealize.ShloMosaic Idealize.ShloMosaic.TcCoe Idealize.SL.Sem Idealize.ShloMosaic.StableHlo
open Idealize.ShloMosaic.ValueIdx
open Cert.ReferenceIdeal.Facts₀

variable {F : FTy → Type} [FloatOps F] [Cert.ReferenceIdeal.Facts]

/-! ## The program as a straight line -/

/-- The twenty-two operations of the lookup, in order: the sign test and the wrapped index, the choice between them
    (the one operation of the inner function), the index column, the two bound tests and their conjunction, its
    reduction over the unit axis, the gather, the fill value and the final choice. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100000_S16384x1_S16384_n_0_n_n_0_1_1 x i),
    TRef.nullary main_call0.cst (constant S_ .f32 0x7FC00000#32),
    TRef.unary main_call0.cst main_call0.v14 (broadcastInDim S16384 ![] bcast_S_S16384),
    TRef.ternary main_call0.v12 main_call0.v13 main_call0.v14 main_call0.v15 select ]

/-- The program is that line: the two functions' bodies substituted at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-- Every execution ends with each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value the line computes -/

/-- The index words after the wrap of negative ones: a word that reads negative has the table's extent added. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The index words as a column: one start index of one component per position. -/
def col (v : IVec S16384 32) : IVec S16384x1 32 := broadcastInDim S16384x1 ![0] bcast_S16384_S16384x1_0 v

/-- Per component of the column: the word lies in [0, 99999] as a signed integer. -/
def inBounds (cl : IVec S16384x1 32) : IVec S16384x1 1 :=
  andi (cmpi .sge cl (broadcastInDim S16384x1 ![] bcast_S_S16384x1 (constantI S_ 32 0#32)))
    (cmpi .sle cl (broadcastInDim S16384x1 ![0, 1] bcast_S1x1_S16384x1_0_1
      (broadcastInDim S1x1 ![1] bcast_S1_S1x1_1 (constantI S1 32 99999#32))))

/-- Per position: every component of its start index is in bounds (the conjunction over the unit axis). -/
def valid (cl : IVec S16384x1 32) : IVec S16384 1 :=
  Host.reduce IntOp.andi (inBounds cl) (constantI S_ 1 1#1) reducesTo_S16384x1_S16384_d1 h_S_

/-- The lookup as the operations compose it: where the start index is in bounds the gathered entry, elsewhere the fill
    value. -/
def refTerm (idx : IVec S16384 32) (tab : FVec F S100000 .f32) : FVec F S16384 .f32 :=
  select (valid (col (wrapIdx idx))) (Host.gather gather_S100000_S16384x1_S16384_n_0_n_n_0_1_1 tab (col (wrapIdx idx)))
    (broadcastInDim S16384 ![] bcast_S_S16384 (constant S_ .f32 0x7FC00000#32))

attribute [local irreducible] Host.reduce Host.gather in
set_option maxRecDepth 8192 in
/-- The fold at the result buffer is that term of the two argument buffers' contents. -/
theorem out_eq (V : Valuation τ sig (Elt F)) :
    after ops V (main_v0 : DevRef τ sig) = refTerm (V (main_arg0 : DevRef τ sig)) (V (main_arg1 : DevRef τ sig)) := by
  unfold refTerm valid inBounds col wrapIdx
  after_results
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- Every execution ends with the result buffer at the composed term of the argument buffers' launch contents and the
    argument buffers unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_fold m ρ)

/-! ## The value read at a position, where every index word names a row -/

/-- A left fold by `and` from 1 over a list whose every term is 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_one f l fun n hn => h n (List.mem_cons_of_mem _ hn)

/-- A reduction by `and` from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- A 32-bit word below 100000 reads the same signed and unsigned. -/
theorem toInt_of_lt {w : BitVec 32} (h : w.toNat < 100000) : w.toInt = (w.toNat : Int) :=
  BitVec.toInt_eq_toNat_of_lt (by omega)

/-- Where every index word names a row no word reads negative, so the wrap keeps every word. -/
theorem wrapIdx_eq {idx : IVec S16384 32} (h : Cert.Take.InRange idx) : wrapIdx idx = idx := by
  funext k
  unfold wrapIdx
  rw [select_apply]
  refine if_neg fun hc => ?_
  have hlt := IntOp.cmpi_slt.1 hc
  have h0 : (broadcastInDim S16384 ![] bcast_S_S16384 (constantI S_ 32 0#32) k).toInt = 0 := rfl
  rw [h0, toInt_of_lt (h k)] at hlt
  omega

/-- The column at a component reads the word of that component's position. -/
theorem col_apply (v : IVec S16384 32) (j : S16384x1.Idx) : col v j = v (ix1 ⟨(j 0).val, idx2_lt0 j⟩) := by
  unfold col broadcastInDim
  congr 1
  funext a
  match a with
  | ⟨0, _⟩ => rfl

/-- Where every index word names a row every component of the column is in bounds. -/
theorem inBounds_col {v : IVec S16384 32} (h : Cert.Take.InRange v) (j : S16384x1.Idx) : inBounds (col v) j = 1#1 := by
  have hk := h (ix1 ⟨(j 0).val, idx2_lt0 j⟩)
  refine IntOp.andi_eq_one.2 ⟨IntOp.cmpi_sge.2 ?_, IntOp.cmpi_sle.2 ?_⟩
  · show (0#32 : BitVec 32).toInt ≤ (col v j).toInt
    rw [col_apply, toInt_of_lt hk, show (0#32 : BitVec 32).toInt = 0 from rfl]
    omega
  · show (col v j).toInt ≤ (99999#32 : BitVec 32).toInt
    rw [col_apply, toInt_of_lt hk, show (99999#32 : BitVec 32).toInt = 99999 from rfl]
    omega

/-- So every position is valid. -/
theorem valid_col {v : IVec S16384 32} (h : Cert.Take.InRange v) (i : S16384.Idx) : valid (col v) i = 1#1 :=
  reduce_andi_of_all _ _ _ _ (fun _ => rfl) (inBounds_col h) i

/-- A position's coordinate is below the number of positions. -/
theorem pos_lt (i : S16384.Idx) : (i 0).val < 16384 := (i 0).isLt

/-- The gather read at a position: the table at the position's start index, read signed and clamped into [0, 99999]. -/
theorem gather_apply {α : Type} {w : Nat} (x : S100000.Idx → α) (cl : IVec S16384x1 w) (i : S16384.Idx) :
    Host.gather gather_S100000_S16384x1_S16384_n_0_n_n_0_1_1 x cl i
      = x (ix1 ⟨min (cl (ix2 ⟨(i 0).val, pos_lt i⟩ (0 : Fin 1))).toInt.toNat 99999, by omega⟩) := by
  unfold Host.gather
  congr 1
  funext a
  obtain rfl : a = 0 := Subsingleton.elim _ _
  refine Fin.ext ?_
  show gather_S100000_S16384x1_S16384_n_0_n_n_0_1_1.start i cl 0 + gather_S100000_S16384x1_S16384_n_0_n_n_0_1_1.batchCoord i 0 + gather_S100000_S16384x1_S16384_n_0_n_n_0_1_1.offCoord i 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S16384x1_S16384_n_0_n_n_0_1_1.startIndexMap from List.mem_singleton.mpr rfl)]
  have hsi : gather_S100000_S16384x1_S16384_n_0_n_n_0_1_1.siIdx i ⟨List.idxOf (0 : Fin 1) gather_S100000_S16384x1_S16384_n_0_n_n_0_1_1.startIndexMap,
      List.idxOf_lt_length_iff.2 (List.mem_singleton.mpr rfl)⟩ = ix2 ⟨(i 0).val, pos_lt i⟩ (0 : Fin 1) := by
    funext b; refine Fin.ext ?_
    match b with
    | ⟨0, _⟩ => rfl
    | ⟨1, _⟩ => rfl
  rw [hsi]
  rfl

/-- Where every index word names a row the composed term is the lookup. -/
theorem refTerm_eq_take {idx : IVec S16384 32} (h : Cert.Take.InRange idx) (tab : FVec F S100000 .f32) :
    refTerm idx tab = Cert.Take.take idx tab := by
  funext i
  unfold refTerm
  rw [wrapIdx_eq h, select_apply, valid_col h i, select_one, gather_apply]
  have hi : (ix1 ⟨(ix2 (⟨(i 0).val, pos_lt i⟩ : Fin 16384) (0 : Fin 1) 0).val, idx2_lt0 _⟩ : S16384.Idx) = i := by
    funext d; match d with | ⟨0, _⟩ => rfl
  have hc : col idx (ix2 ⟨(i 0).val, pos_lt i⟩ (0 : Fin 1)) = idx i := (col_apply idx _).trans (congrArg idx hi)
  unfold Cert.Take.take
  rw [Cert.Take.slot_of_lt (h i)]
  refine congrArg tab (congrArg ix1 (Fin.ext ?_))
  show min (col idx (ix2 ⟨(i 0).val, pos_lt i⟩ (0 : Fin 1))).toInt.toNat 99999 = (idx i).toNat
  rw [hc, toInt_of_lt (h i), Int.toNat_natCast]
  have := h i
  omega

/-! ## The run -/

/-- From a memory whose index words all name rows of the table, every execution of the program terminates with the
    result buffer holding the lookup of the table at the index words and both argument buffers unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (h : ∀ c : Dev Cert.ReferenceIdeal.nD, Cert.Take.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread _ Cert.ReferenceIdeal.τ).loc Cert.ReferenceIdeal.main_v0) = Cert.Take.take (m ((c.tc : Thread _ Cert.ReferenceIdeal.τ).loc Cert.ReferenceIdeal.main_arg0)) (m ((c.tc : Thread _ Cert.ReferenceIdeal.τ).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run defs _ _).mono (fun _ hr c => ⟨((hr c).1).trans (refTerm_eq_take (h c) _), (hr c).2⟩) (run_term (F := Ideal) m g)

/-- The same run with the value dropped: it terminates and leaves both argument buffers unchanged. -/
theorem frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ hr c => (hr c).2) (run_term (F := Ideal) m g)

end Cert.ReferenceIdeal.RefValue

end
-- ==== Proof.lean ====
/-
  The lookup kernel against `jnp.take`: both are `result[i] = table[indices[i]]`.

  The kernel re-lays the 16384 index words as 16 rows of 1024; sixteen vector subcores each fetch one row of index
  words, gather the table's entries those words name, and write them to the same row of a 16 x 1024 result, which is
  re-laid flat. Re-laying matches positions in row-major order, so position i of the flat result is the table at the
  number index word i holds. The reference first adds the table's extent to negative index words, masks the result where
  the word is outside [0, 99999], and gathers with clamping; under the precondition every index word is in [0, 99999]
  as a signed number, so the correction, the mask and the clamp change nothing and entry i is again the table at the
  number index word i holds. No arithmetic on the table's entries happens on either side, so the equality needs no
  finiteness: only the index range is used, and it is used by both programs' frames as well (a gather at a word that
  names no row does not complete).

  Each kernel frame is the kernel's run with the value dropped, at its own float instance; the two printed kernels are
  the same text, so the run is proved once for any float instance and instantiated twice.
-/
import proofs.«207180_g34299608826617_cont_8to1_b_1974_12_alg».proof.Defs
import proofs.«207180_g34299608826617_cont_8to1_b_1974_12_alg».proof.Proof.Gen.Kernel
import proofs.«207180_g34299608826617_cont_8to1_b_1974_12_alg».proof.Proof.Gen.KernelIdeal
import proofs.«207180_g34299608826617_cont_8to1_b_1974_12_alg».proof.Proof.Gen.ReferenceIdeal
import proofs.«207180_g34299608826617_cont_8to1_b_1974_12_alg».proof.Proof.Gen.Pre_input_domain
import proofs.«207180_g34299608826617_cont_8to1_b_1974_12_alg».proof.Proof.KILaunch
import proofs.«207180_g34299608826617_cont_8to1_b_1974_12_alg».proof.Proof.KBLaunch
import proofs.«207180_g34299608826617_cont_8to1_b_1974_12_alg».proof.Proof.RefRun
import proofs.«207180_g34299608826617_cont_8to1_b_1974_12_alg».proof.Proof.PreRange

noncomputable section

namespace Cert.Proof

open Idealize.ShloMosaic Idealize.SL.Sem

theorem frame_k : Cert.frame_Kernel := fun m ρ hpre =>
  (θ_run Cert.Kernel.defs _ _).mono (fun _ h c => ⟨(h c).2.1, (h c).2.2⟩) (Cert.Proof.KB.run_value (F := Bits) m ρ hpre)

theorem frame_ki : Cert.frame_KernelIdeal := fun m ρ hpre =>
  (θ_run Cert.KernelIdeal.defs _ _).mono (fun _ h c => ⟨(h c).2.1, (h c).2.2⟩) (Cert.Proof.KI.run_value (F := Ideal) m ρ hpre)

theorem frame_ri : Cert.frame_ReferenceIdeal := fun m ρ hpre =>
  (θ_run Cert.ReferenceIdeal.defs _ _).mono (fun _ h c => (h c).2)
    (Cert.ReferenceIdeal.RefValue.run m ρ (fun c => Cert.Take.inRange_of_pre _ _ (hpre c)))

/-- The ideal pass rewrote nothing: the idealized kernel is the kernel's own text read over the extended reals. -/
theorem preserves : Cert.preserves_Kernel_KernelIdeal := trivial

/-- From memories agreeing on the index array and the table, both programs end with the lookup of the table at the
    index array. -/
theorem algebraic : Cert.algebraic_KernelIdeal_ReferenceIdeal := by
  intro m g m' g' hpre hagree
  refine ⟨fun c => Cert.Take.take (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run_value (F := Ideal) m g hpre, ?_⟩
  have hr : ∀ c : Dev Cert.ReferenceIdeal.nD, Cert.Take.InRange (m' ((c.tc : Thread Cert.ReferenceIdeal.nD Cert.ReferenceIdeal.τ).loc Cert.ReferenceIdeal.main_arg0)) := by
    intro c
    rw [(hagree c).1]
    exact Cert.Take.inRange_of_pre _ _ (hpre c)
  refine (θ_run Cert.ReferenceIdeal.defs _ _).mono (fun _ h c => ⟨?_, (h c).2⟩) (Cert.ReferenceIdeal.RefValue.run m' g' hr)
  rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
